-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S4096 : Shape := ⟨1, ![4096]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S256x4096 .f32) (main_arg1 : FVec F S4096 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S256x4096 : Shape := ⟨2, ![256, 4096]⟩
abbrev S4096 : Shape := ⟨1, ![4096]⟩
abbrev S1x4096 : Shape := ⟨2, ![1, 4096]⟩
abbrev S256x100x4096 : Shape := ⟨3, ![256, 100, 4096]⟩
abbrev S128x256 : Shape := ⟨2, ![128, 256]⟩
abbrev S1x256 : Shape := ⟨2, ![1, 256]⟩
abbrev S128x100x256 : Shape := ⟨3, ![128, 100, 256]⟩
abbrev S16x256 : Shape := ⟨2, ![16, 256]⟩
abbrev S16x1x256 : Shape := ⟨3, ![16, 1, 256]⟩
abbrev S16x100x256 : Shape := ⟨3, ![16, 100, 256]⟩

abbrev nBuf : Space → Nat
  | .hbm => 4
  | .vmem => 6
  | .smem => 0
  | _ => 0

abbrev bufTy : (tb : Table) → Fin (tcTables nBuf tb) → BufTy
  | .hbm, ⟨0, _⟩ => ⟨S256x4096, .f32⟩
  | .hbm, ⟨1, _⟩ => ⟨S4096, .f32⟩
  | .hbm, ⟨2, _⟩ => ⟨S1x4096, .f32⟩
  | .hbm, ⟨3, _⟩ => ⟨S256x100x4096, .f32⟩
  | .local _ .vmem, ⟨0, _⟩ => ⟨S128x256, .f32⟩
  | .local _ .vmem, ⟨1, _⟩ => ⟨S128x256, .f32⟩
  | .local _ .vmem, ⟨2, _⟩ => ⟨S1x256, .f32⟩
  | .local _ .vmem, ⟨3, _⟩ => ⟨S1x256, .f32⟩
  | .local _ .vmem, ⟨4, _⟩ => ⟨S128x100x256, .f32⟩
  | .local _ .vmem, ⟨5, _⟩ => ⟨S128x100x256, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c16_i32 : BitVec 32 := 16#32
  let v3 : BitVec 32 := Scalar.muli arg5 c16_i32
  v3
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c16_i32 : BitVec 32 := 16#32
  let v3 : BitVec 32 := Scalar.muli arg5 c16_i32
  let v4 : BitVec 32 := v3
  let v5 : Index := Scalar.indexCast v4
  let c0_2 : Index := 0#32
  ![v5.toNat, 0]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let c16_i32 : BitVec 32 := 16#32
  let v3 : BitVec 32 := Scalar.muli arg5 c16_i32
  let v4 : BitVec 32 := v3
  let v25 : Index := Scalar.indexCast v4
  let c0_8 : Index := 0#32
  let c0_9 : Index := 0#32
  ![v25.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x100x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4096_S1x4096 : S4096.ShapeCasts S1x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  h_S16x256 : 0 < S16x256.numel
  broadcasts_S1x256_S16x256 : S1x256.Broadcasts S16x256
  shapeCasts_S16x256_S16x1x256 : S16x256.ShapeCasts S16x1x256
  iota_S16x100x256_d1_w32 : S16x100x256.Iotas .tc 32 [1]
  broadcasts_S16x1x256_S16x100x256 : S16x1x256.Broadcasts S16x100x256
  h_S16x100x256 : 0 < S16x100x256.numel
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S16x256.size a ≤ S128x256.size a
  k0_off2_inb : ∀ k0_t1 : Fin k0_t1_loop.trips, ∀ a, (k0_off2 k0_t1) a + S16x100x256.size a ≤ S128x100x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S256x4096.size a
  hwx0_0 : ∀ i : grid0.Coords, EltTy.bits .f32 = 32 ∨ (Rect.block (s := S256x4096) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x4096.size a
  hwx0_1 : ∀ i : grid0.Coords, EltTy.bits .f32 = 32 ∨ (Rect.block (s := S1x4096) S1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x100x256.size a ≤ S256x100x4096.size a
  hwx0_2 : ∀ i : grid0.Coords, EltTy.bits .f32 = 32 ∨ (Rect.block (s := S256x100x4096) S128x100x256.size (cc0_transform_2 i) (hinb0_2 i)).WholeWords (EltTy.packing .f32)

variable [Facts₀]

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x100x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x4096 : Shape := ⟨2, ![256, 4096]⟩
abbrev S4096 : Shape := ⟨1, ![4096]⟩
abbrev S1x4096 : Shape := ⟨2, ![1, 4096]⟩
abbrev S_ : Shape := ⟨0, ![]⟩
abbrev S100 : Shape := ⟨1, ![100]⟩
abbrev S1x100x1 : Shape := ⟨3, ![1, 100, 1]⟩
abbrev S256x1x4096 : Shape := ⟨3, ![256, 1, 4096]⟩
abbrev S256x100x4096 : Shape := ⟨3, ![256, 100, 4096]⟩

abbrev nBuf : Space → Nat
  | .hbm => 27
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096, .f32⟩
  | .hbm, ⟨2, _⟩ => ⟨S1x4096, .f32⟩
  | .hbm, ⟨3, _⟩ => ⟨S256x4096, .f32⟩
  | .hbm, ⟨4, _⟩ => ⟨S256x4096, .f32⟩
  | .hbm, ⟨5, _⟩ => ⟨S_, .f32⟩
  | .hbm, ⟨6, _⟩ => ⟨S256x4096, .f32⟩
  | .hbm, ⟨7, _⟩ => ⟨S256x4096, .f32⟩
  | .hbm, ⟨8, _⟩ => ⟨S_, .f32⟩
  | .hbm, ⟨9, _⟩ => ⟨S256x4096, .f32⟩
  | .hbm, ⟨10, _⟩ => ⟨S256x4096, .f32⟩
  | .hbm, ⟨11, _⟩ => ⟨S256x4096, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S256x4096, .i32⟩
  | .hbm, ⟨16, _⟩ => ⟨S256x4096, .i32⟩
  | .hbm, ⟨17, _⟩ => ⟨S_, .i32⟩
  | .hbm, ⟨18, _⟩ => ⟨S256x4096, .i32⟩
  | .hbm, ⟨19, _⟩ => ⟨S256x4096, .i32⟩
  | .hbm, ⟨20, _⟩ => ⟨S100, .i32⟩
  | .hbm, ⟨21, _⟩ => ⟨S1x100x1, .i32⟩
  | .hbm, ⟨22, _⟩ => ⟨S256x1x4096, .i32⟩
  | .hbm, ⟨23, _⟩ => ⟨S256x100x4096, .i32⟩
  | .hbm, ⟨24, _⟩ => ⟨S256x100x4096, .i32⟩
  | .hbm, ⟨25, _⟩ => ⟨S256x100x4096, .i1⟩
  | .hbm, ⟨26, _⟩ => ⟨S256x100x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S256x4096_0_1 : S1x4096.BroadcastsInDim S256x4096 (![0, 1] : Fin 2 → Fin S256x4096.rank)
  bcast_S_S256x4096 : S_.BroadcastsInDim S256x4096 (![] : Fin 0 → Fin S256x4096.rank)
  bcast_S100_S1x100x1_1 : S100.BroadcastsInDim S1x100x1 (![1] : Fin 1 → Fin S1x100x1.rank)
  bcast_S256x4096_S256x1x4096_0_2 : S256x4096.BroadcastsInDim S256x1x4096 (![0, 2] : Fin 2 → Fin S256x1x4096.rank)
  bcast_S1x100x1_S256x100x4096_0_1_2 : S1x100x1.BroadcastsInDim S256x100x4096 (![0, 1, 2] : Fin 3 → Fin S256x100x4096.rank)
  bcast_S256x1x4096_S256x100x4096_0_1_2 : S256x1x4096.BroadcastsInDim S256x100x4096 (![0, 1, 2] : Fin 3 → Fin S256x100x4096.rank)

variable [Facts₀]

class Facts : Prop extends Facts₀ where

variable [Facts]
-- ==== Proof.SpikeSpec.lean ====
/-
  The one-hot spike-time tensor, as a function of the two argument arrays, and the scalar law behind the claim.

  For a batch row b, a time step t and a feature f the result is 1 when t is the spike time of (b, f) and 0 otherwise,
  the spike time being v = (1 − x[b,f] · d[f]) · 99 rounded toward zero and held in [0, 99]. The two programs differ in
  ONE place: one clips v to [0, 99] as a number and then rounds it to a 32-bit integer, the other rounds v first —
  the rounding saturates at the ends of the 32-bit range — and then clips the integer. Rounding toward zero is monotone,
  fixes 0 and 99, and sends everything below 0 to something ≤ 0 and everything above 99 to something ≥ 99, so the two
  orders give the same integer for EVERY extended real v, the infinities included (`slot_eq`); no finiteness is used.
-/
import Idealize.ShloMosaic.PureOps.Ideal
import Idealize.ShloMosaic.PureOps.Ideal.Laws
import Idealize.ShloMosaic.Lib.ValueIdx

noncomputable section

namespace Cert.SpikeSpec

open Idealize.ShloMosaic Idealize.ShloMosaic.ValueIdx

/-! ## The float words of the programs -/

/-- The word of 1.0 is the number one. -/
theorem one_word : Ideal.ofBits .f32 0x3F800000#32 = 1 := by
  simp [Ideal.ofBits, Ideal.ieee, -EReal.coe_mul]; norm_num

/-- The word of 99.0 is the number ninety-nine. -/
theorem top_word : Ideal.ofBits .f32 0x42C60000#32 = ((99 : ℝ) : EReal) := by
  simp [Ideal.ofBits, Ideal.ieee, -EReal.coe_mul]; norm_num

/-! ## Clipping and rounding, in either order -/

/-- The spike time before rounding, (1 − x · d) · 99, in the order the operations are applied. -/
def scaled (x d : EReal) : EReal :=
  (Ideal.ofBits .f32 0x3F800000#32 - x * d) * Ideal.ofBits .f32 0x42C60000#32

/-- Clip to [0, 99] as a number, then round toward zero. -/
def slotClipFirst (v : EReal) : BitVec 32 :=
  Ideal.fptosi 32 (min (Ideal.ofBits .f32 0x42C60000#32) (max (Ideal.ofBits .f32 0x00000000#32) v))

/-- Round toward zero (saturating at the 32-bit range), then clip the integer to [0, 99]. -/
def slotRoundFirst (v : EReal) : BitVec 32 :=
  IntOp.minsi 99#32 (IntOp.maxsi 0#32 (Ideal.fptosi 32 v))

/-- Clipping the word of an integer of the signed 32-bit range to [0, 99], by the signed maximum and minimum, is the word
    of the clipped integer. -/
theorem clip_word (n : Int) (h1 : -2147483648 ≤ n) (h2 : n ≤ 2147483647) :
    IntOp.minsi 99#32 (IntOp.maxsi 0#32 (BitVec.ofInt 32 n)) = BitVec.ofInt 32 (min 99 (max 0 n)) := by
  have hn : (BitVec.ofInt 32 n).toInt = n :=
    BitVec.toInt_ofInt_eq_self (by decide) (by norm_num; omega) (by norm_num; omega)
  unfold IntOp.minsi IntOp.maxsi
  by_cases hneg : n < 0
  · have hs : (BitVec.ofInt 32 n).slt 0#32 = true := by
      rw [BitVec.slt_eq_decide, hn]; exact decide_eq_true hneg
    rw [if_pos hs, if_neg (by decide), max_eq_left (le_of_lt hneg), min_eq_right (by norm_num)]
    rfl
  · have hs : ¬ ((BitVec.ofInt 32 n).slt 0#32 = true) := by
      rw [BitVec.slt_eq_decide, hn]; simpa using hneg
    rw [if_neg hs, max_eq_right (by omega)]
    by_cases hbig : 99 < n
    · have hs' : (99#32 : BitVec 32).slt (BitVec.ofInt 32 n) = true := by
        rw [BitVec.slt_eq_decide, hn]; exact decide_eq_true hbig
      rw [if_pos hs', min_eq_left (le_of_lt hbig)]
      rfl
    · have hs' : ¬ ((99#32 : BitVec 32).slt (BitVec.ofInt 32 n) = true) := by
        rw [BitVec.slt_eq_decide, hn]; simpa using hbig
      rw [if_neg hs', min_eq_right (by omega)]

/-- The saturating rounding stays in the signed 32-bit range. -/
theorem clamped_mem (v : EReal) :
    -2147483648 ≤ Ideal.toIntClamped (-2147483648) 2147483647 v
      ∧ Ideal.toIntClamped (-2147483648) 2147483647 v ≤ 2147483647 := by
  induction v using EReal.rec with
  | bot => simp
  | top => simp
  | coe r => rw [Ideal.toIntClamped_coe]; constructor <;> omega

/-- THE LAW: clip-then-round and round-then-clip give the same 32-bit integer, for every extended real. -/
theorem slot_eq (v : EReal) : slotClipFirst v = slotRoundFirst v := by
  unfold slotClipFirst slotRoundFirst Ideal.fptosi
  rw [top_word, Ideal.ofBits_zero_f32]
  have hlo : (-((2 ^ (32 - 1) : ℕ) : ℤ)) = -2147483648 := by norm_num
  have hhi : (((2 ^ (32 - 1) : ℕ) : ℤ) - 1) = 2147483647 := by norm_num
  rw [hlo, hhi, clip_word _ (clamped_mem v).1 (clamped_mem v).2]
  congr 1
  induction v using EReal.rec with
  | bot =>
    rw [max_eq_left bot_le, show min ((99 : ℝ) : EReal) 0 = ((0 : ℝ) : EReal) from by
      rw [min_eq_right]; · rfl
      · exact_mod_cast (by norm_num : (0 : ℝ) ≤ 99)]
    rw [Ideal.toIntClamped_coe, Ideal.toIntClamped_bot]
    norm_num
  | top =>
    rw [max_eq_right le_top, min_eq_left le_top, Ideal.toIntClamped_coe, Ideal.toIntClamped_top]
    norm_num
  | coe r =>
    have e : min ((99 : ℝ) : EReal) (max 0 (r : EReal)) = ((min 99 (max 0 r) : ℝ) : EReal) := by
      rw [← EReal.coe_zero, ← EReal.coe_strictMono.monotone.map_max, ← EReal.coe_strictMono.monotone.map_min]
    rw [e, Ideal.toIntClamped_coe, Ideal.toIntClamped_coe]
    have hc : (0 : ℝ) ≤ min 99 (max 0 r) := le_min (by norm_num) (le_max_left _ _)
    rw [if_pos hc, Int.floor_mono.map_min, Int.floor_mono.map_max]
    have f99 : ⌊(99 : ℝ)⌋ = 99 := Int.floor_ofNat 99
    have f0 : ⌊(0 : ℝ)⌋ = 0 := Int.floor_zero
    rw [f99, f0]
    by_cases hr : 0 ≤ r
    · rw [if_pos hr]; omega
    · rw [if_neg hr]
      have h1 : ⌈r⌉ ≤ 0 := Int.ceil_le.mpr (by push_cast; exact le_of_lt (not_le.mp hr))
      have h2 : ⌊r⌋ ≤ ⌈r⌉ := Int.floor_le_ceil r
      omega

/-! ## The mark at one time step -/

/-- 1 where the time step's word is the slot, 0 elsewhere: the one-bit comparison read as a number. -/
def mark (t s : BitVec 32) : EReal := (((IntOp.cmpi .eq t s).toNat : ℝ) : EReal)

/-- Choosing the word of 1.0 or of 0.0 by a one-bit condition is the condition's bit read as a number. -/
theorem select_words (b : BitVec 1) :
    Scalar.select b (Ideal.ofBits .f32 0x3F800000#32) (Ideal.ofBits .f32 0x00000000#32) = (((b.toNat : ℝ)) : EReal) := by
  by_cases hb : b = 1#1
  · subst hb; rw [select_one, one_word]; norm_num
  · rw [eq_zero_of_ne_one hb, select_zero, Ideal.ofBits_zero_f32]; norm_num

/-! ## The result array -/

/-- The spike tensor of the two arguments: at (b, t, f) the mark of step t against the slot of (b, f). -/
def spikes (x : FVec Ideal ⟨2, ![256, 4096]⟩ .f32) (d : FVec Ideal ⟨1, ![4096]⟩ .f32) :
    FVec Ideal ⟨3, ![256, 100, 4096]⟩ .f32 :=
  fun i => mark (BitVec.ofNat 32 (i 1).val) (slotRoundFirst (scaled (x (ix2 (i 0) (i 2))) (d (ix1 (i 2)))))

end Cert.SpikeSpec

end
-- ==== Proof.LibBroadcastRank3.lean ====
/-
  A rank-3 array broadcast along one axis, read at one entry.

  Two companions of the library's row form for matrices: an [a, 1, c] array broadcast along its middle axis to
  [a, b, c] reads, at (p, q, r), the operand at (p, 0, r); a [1, b, c] array broadcast along its leading axis to
  [a, b, c] reads the operand at (0, q, r). (When an extent other than the broadcast one is itself 1 the coordinate there
  is 0 on both sides.)
-/
import Idealize.ShloMosaic.Lib.Pipeline.Value
import Idealize.ShloMosaic.Lib.ValueIdx

namespace Cert.LibBroadcastRank3

open Idealize.ShloMosaic Idealize.ShloMosaic.ValueIdx

/-- An [a, 1, c] array broadcast to [a, b, c] reads, at (p, q, r), the operand at (p, 0, r). -/
theorem broadcastTo_a1c_abc_apply {α : Type} {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A [1, b, c] array broadcast to [a, b, c] reads, at (p, q, r), the operand at (0, q, r). -/
theorem broadcastTo_1bc_abc_apply {α : Type} {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

end Cert.LibBroadcastRank3
-- ==== Proof.LibObjectAxis.lean ====
/-
  Layout reads around a pair of axes flattened into one, a middle unit axis, and a vector spread over two leading axes.

  A rank-3 array [a, b, c] and the matrix [a * b, c] that lists its (p, o) pairs row by row hold the same entries: row
  p * b + o of the matrix is the array's fibre at (p, o). Read at an entry:

  `shapeCast_abc_nc_apply`      [a, b, c] cast to [n, c] (n = a * b) reads, at (p * b + o, r), the operand at (p, o, r);
  `shapeCast_nc_abc_apply`      [n, c] cast to [a, b, c] reads, at (p, o, r), the operand at (p * b + o, r);
  `shapeCast_ac_a1c_apply`      [a, c] cast to [a, 1, c] reads, at (p, 0, r), the operand at (p, r);
  `broadcastTo_11c_abc_apply`   [1, 1, c] broadcast to [a, b, c] reads, at (p, q, r), the operand at (0, 0, r);
  `multiReduction_add_mid`      the sum over the middle axis of [a, b, c], at the ideal instance, read at (p, r), is the sum
                                over o of the operand at (p, o, r) (the accumulator pattern is the printed zero word).
-/
import Idealize.ShloMosaic.Lib.Pipeline.Value
import Idealize.ShloMosaic.Lib.ValueIdx
import Idealize.ShloMosaic.PureOps.Ideal.Laws

noncomputable section

open scoped BigOperators

namespace Cert.LibObjectAxis

open Idealize.ShloMosaic Idealize.ShloMosaic.ValueIdx

variable {α : Type}

/-- An [a, b, c] array cast to [n, c] reads, at row p * b + o and column r, the operand at (p, o, r): both sit at
    row-major position (p * b + o) * c + r. -/
theorem shapeCast_abc_nc_apply {a b c n : ℕ} (x : (⟨3, ![a, b, c]⟩ : Shape).Idx → α)
    (h : (⟨3, ![a, b, c]⟩ : Shape).ShapeCasts ⟨2, ![n, c]⟩) (p : Fin a) (o : Fin b) (r : Fin c)
    (hlt : p.val * b + o.val < n) :
    shapeCast ⟨2, ![n, c]⟩ x h (ix2 (⟨p.val * b + o.val, hlt⟩ : Fin n) r) = x (ix3 p o r) :=
  shapeCast_apply x h _ _ (by
    rw [Shape.rowMajor_val_three, Shape.rowMajor_val_two]
    rfl)

/-- An [n, c] matrix cast to [a, b, c] reads, at (p, o, r), the operand at row p * b + o and column r. -/
theorem shapeCast_nc_abc_apply {a b c n : ℕ} (x : (⟨2, ![n, c]⟩ : Shape).Idx → α)
    (h : (⟨2, ![n, c]⟩ : Shape).ShapeCasts ⟨3, ![a, b, c]⟩) (p : Fin a) (o : Fin b) (r : Fin c)
    (hlt : p.val * b + o.val < n) :
    shapeCast ⟨3, ![a, b, c]⟩ x h (ix3 p o r) = x (ix2 (⟨p.val * b + o.val, hlt⟩ : Fin n) r) :=
  shapeCast_apply x h _ _ (by
    rw [Shape.rowMajor_val_three, Shape.rowMajor_val_two]
    rfl)

/-- An [a, c] matrix cast to [a, 1, c] reads, at (p, u, r), the operand at (p, r). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- A [1, 1, c] array broadcast to [a, b, c] reads, at (p, q, r), the operand at (0, 0, r). -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- The sum over the middle axis of an [a, b, c] array of extended reals, read at (p, r): the sum over o of the
    operand at (p, o, r). -/
theorem multiReduction_add_mid {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (r : Fin c) :
    multiReduction .add [1] ⟨2, ![a, c]⟩ src 0x00000000#32 h hφ hacc (ix2 p r) = ∑ o : Fin b, src (ix3 p o r) :=
  (Ideal.multiReduction_add_single src 0x00000000#32 h hφ hacc (ix2 p r)).trans
    (Finset.sum_congr rfl fun k _ => congrArg src (funext fun ax => Fin.ext (by
      match ax with
      | ⟨0, _⟩ => rfl
      | ⟨1, _⟩ => rfl
      | ⟨2, _⟩ => rfl)))

end Cert.LibObjectAxis

end
-- ==== Proof.ChunkValue.lean ====
/-
  What the kernel's body stores for one 16-row chunk, read at an entry.

  The body takes 16 rows of the x block and the one row of delays, forms (1 − x · d) · 99 entry by entry (the delay row
  repeated down the rows), clips it to [0, 99], rounds toward zero, and then lays the 16 × 256 integers out as
  [16, 1, 256], repeats them along a new middle axis of 100 time steps, and compares each with its step's number: the
  stored value at (p, q, r) is 1 where step q is the slot of entry (p, r) of the chunk and 0 elsewhere. Only four of the
  operations move coordinates — the delay row's repetition, the unit middle axis, its repetition over the steps, and the
  step counter — and each reads its operand at one entry.
-/
import proofs.«116309_j78632261255776_2_alg».proof.Proof.Gen.KernelIdeal.Skeleton
import proofs.«116309_j78632261255776_2_alg».proof.Proof.SpikeSpec
import proofs.«116309_j78632261255776_2_alg».proof.Proof.LibBroadcastRank3
import proofs.«116309_j78632261255776_2_alg».proof.Proof.LibObjectAxis
import Idealize.ShloMosaic.Lib.Pipeline.Value
import Idealize.ShloMosaic.Lib.ValueLayout

noncomputable section

namespace Cert.KernelSpikes

open Cert.KernelIdeal Cert.KernelIdeal.Gen Idealize.ShloMosaic Idealize.ShloMosaic.ValueIdx Cert.SpikeSpec

/-- The slot words of a chunk: the clipped, rounded spike times of its 16 × 256 entries. -/
def chunkSlots (d : Vec Ideal S1x256 .f32) (x : Vec Ideal S16x256 .f32) : IVec S16x256 32 :=
  fptosi 32 (minimumf (broadcast S16x256 (Scalar.ofBits (F := Ideal) .f32 0x42C60000#32))
    (maximumf (broadcast S16x256 (Scalar.ofBits (F := Ideal) .f32 0x00000000#32))
      (mulf (subf (broadcast S16x256 (Scalar.ofBits (F := Ideal) .f32 0x3F800000#32))
          (mulf x (broadcastTo S16x256 (shapeCast S1x256 d shapeCasts_S1x256_S1x256) broadcasts_S1x256_S16x256)))
        (broadcast S16x256 (Scalar.ofBits (F := Ideal) .f32 0x42C60000#32)))))

/-- The stored value is the comparison of the step counter with the slot words spread over the steps, as 1.0 or 0.0. -/
theorem pay_eq (d : Vec Ideal S1x256 .f32) (x : Vec Ideal S16x256 .f32) :
    k0_pay1 (F := Ideal) d x
      = select (cmpi .eq (iota .tc S16x100x256 32 [1] iota_S16x100x256_d1_w32)
            (broadcastTo S16x100x256 (shapeCast S16x1x256 (chunkSlots d x) shapeCasts_S16x256_S16x1x256)
              broadcasts_S16x1x256_S16x100x256))
          (broadcast S16x100x256 (Scalar.ofBits (F := Ideal) .f32 0x3F800000#32))
          (broadcast S16x100x256 (Scalar.ofBits (F := Ideal) .f32 0x00000000#32)) := rfl

/-- The slot word of entry (p, r) of a chunk: the delay row is read at r whatever the row p. -/
theorem chunkSlots_at (d : Vec Ideal S1x256 .f32) (x : Vec Ideal S16x256 .f32) (p : Fin 16) (r : Fin 256) :
    chunkSlots d x (ix2 p r) = slotClipFirst (scaled (x (ix2 p r)) (d (ix2 (0 : Fin 1) r))) := by
  have e : broadcastTo S16x256 (shapeCast S1x256 d shapeCasts_S1x256_S1x256) broadcasts_S1x256_S16x256 (ix2 p r)
      = d (ix2 (0 : Fin 1) r) := by
    rw [broadcastTo_1b_ab_apply, shapeCast_self]
  show Ideal.fptosi 32 (min (Ideal.ofBits .f32 0x42C60000#32) (max (Ideal.ofBits .f32 0x00000000#32)
    ((Ideal.ofBits .f32 0x3F800000#32 - x (ix2 p r)
      * broadcastTo S16x256 (shapeCast S1x256 d shapeCasts_S1x256_S1x256) broadcasts_S1x256_S16x256 (ix2 p r))
      * Ideal.ofBits .f32 0x42C60000#32))) = _
  rw [e]
  rfl

/-- THE CHUNK'S STORED VALUE at (p, q, r): the mark of step q against the slot of entry (p, r). -/
theorem pay_at (d : Vec Ideal S1x256 .f32) (x : Vec Ideal S16x256 .f32) (p : Fin 16) (q : Fin 100) (r : Fin 256) :
    k0_pay1 (F := Ideal) d x (ix3 p q r)
      = mark (BitVec.ofNat 32 q.val) (slotClipFirst (scaled (x (ix2 p r)) (d (ix2 (0 : Fin 1) r)))) := by
  rw [pay_eq]
  show Scalar.select (IntOp.cmpi .eq (iota .tc S16x100x256 32 [1] iota_S16x100x256_d1_w32 (ix3 p q r))
      (broadcastTo S16x100x256 (shapeCast S16x1x256 (chunkSlots d x) shapeCasts_S16x256_S16x1x256)
        broadcasts_S16x1x256_S16x100x256 (ix3 p q r)))
      (Ideal.ofBits .f32 0x3F800000#32) (Ideal.ofBits .f32 0x00000000#32) = _
  rw [iota_single_apply, Cert.LibBroadcastRank3.broadcastTo_a1c_abc_apply, Cert.LibObjectAxis.shapeCast_ac_a1c_apply,
    chunkSlots_at, select_words]
  rfl

end Cert.KernelSpikes

end
-- ==== Proof.BlockValue.lean ====
/-
  What the kernel's body leaves in the output block, as one function of its two input blocks.

  The body walks the 128 rows of its x block in 8 chunks of 16: trip k reads rows 16k … 16k+15 and stores, at the same
  rows of the output block, the chunk's marks (ChunkValue). So every store is the restriction, to its 16 rows, of ONE
  function of the block's index — at (a, q, r) the mark of step q against the slot of entry (a, r) of the x block, the
  delay row read at r — and the eight stores together fill the block: read back, the block is that function.
-/
import proofs.«116309_j78632261255776_2_alg».proof.Proof.Gen.KernelIdeal.Frame
import proofs.«116309_j78632261255776_2_alg».proof.Proof.ChunkValue

noncomputable section

namespace Cert.KernelSpikes

open Cert.KernelIdeal Cert.KernelIdeal.Gen Idealize.ShloMosaic Idealize.ShloMosaic.TcCoe Idealize.SL.Sem
open Idealize.ShloMosaic.ValueIdx Cert.SpikeSpec

/-- The output block of a point: at (a, q, r) the mark of step q against the slot of (a, r). -/
def blockSpikes (x : Vec Ideal S128x256 .f32) (d : Vec Ideal S1x256 .f32) : Vec Ideal S128x100x256 .f32 :=
  fun y => mark (BitVec.ofNat 32 (y 1).val) (slotClipFirst (scaled (x (ix2 (y 0) (y 2))) (d (ix2 (0 : Fin 1) (y 2)))))

/-- The block function at an index given by its three coordinates. -/
theorem blockSpikes_of_coords (x : Vec Ideal S128x256 .f32) (d : Vec Ideal S1x256 .f32) (Y : S128x100x256.Idx)
    (a : Fin 128) (q : Fin 100) (r : Fin 256) (h0 : (Y 0).val = a.val) (h1 : (Y 1).val = q.val) (h2 : (Y 2).val = r.val) :
    blockSpikes x d Y = mark (BitVec.ofNat 32 q.val) (slotClipFirst (scaled (x (ix2 a r)) (d (ix2 (0 : Fin 1) r)))) := by
  have e : Y = ix3 a q r := funext fun ax => Fin.ext (by
    match ax with
    | ⟨0, _⟩ => exact h0
    | ⟨1, _⟩ => exact h1
    | ⟨2, _⟩ => exact h2)
  subst e
  rfl

/-- The zero offsets of the delay row's load, however spelt. -/
theorem hz : (![0, 0] : Fin 2 → Nat) = fun _ => 0 := funext fun a => by fin_cases a <;> rfl

/-- TRIP k's STORE restricts the block function: its payload at (p, q, r) is the block function at row 16k + p. -/
theorem piece_at (d : Vec Ideal S1x256 .f32) (x : Vec Ideal S128x256 .f32) (k : Fin k0_t1_loop.trips)
    (p : Fin 16) (q : Fin 100) (r : Fin 256) :
    k0_pay1 (F := Ideal) d (View.ld x (Rect.unit (s := S128x256) (k0_off1 k) S16x256.size (k0_off1_inb k))) (ix3 p q r)
      = blockSpikes x d ((Rect.unit (s := S128x100x256) (k0_off2 k) S16x100x256.size (k0_off2_inb k)).emb (ix3 p q r)) := by
  have hk : k.val < 8 := Nat.lt_of_lt_of_le k.isLt k0_t1_abs.2.1
  have hp : p.val < 16 := p.isLt
  have h0 : (((Rect.unit (s := S128x100x256) (k0_off2 k) S16x100x256.size (k0_off2_inb k)).emb (ix3 p q r)) 0).val
      = (⟨16 * k.val + p.val, by omega⟩ : Fin 128).val := by
    show (k0_off2 k) 0 + 1 * p.val = 16 * k.val + p.val
    rw [k0_off2_eq]; show 16 * k.val + 1 * p.val = _; omega
  have h1 : (((Rect.unit (s := S128x100x256) (k0_off2 k) S16x100x256.size (k0_off2_inb k)).emb (ix3 p q r)) 1).val = q.val := by
    show (k0_off2 k) 1 + 1 * q.val = q.val
    rw [k0_off2_eq]; show 0 + 1 * q.val = _; omega
  have h2 : (((Rect.unit (s := S128x100x256) (k0_off2 k) S16x100x256.size (k0_off2_inb k)).emb (ix3 p q r)) 2).val = r.val := by
    show (k0_off2 k) 2 + 1 * r.val = r.val
    rw [k0_off2_eq]; show 0 + 1 * r.val = _; omega
  have e : View.ld x (Rect.unit (s := S128x256) (k0_off1 k) S16x256.size (k0_off1_inb k)) (ix2 p r)
      = x (ix2 (⟨16 * k.val + p.val, by omega⟩ : Fin 128) r) :=
    congrArg x (funext fun ax => Fin.ext (by
      match ax with
      | ⟨0, _⟩ => show (k0_off1 k) 0 + 1 * p.val = 16 * k.val + p.val; rw [k0_off1_eq]; show 16 * k.val + 1 * p.val = _; omega
      | ⟨1, _⟩ => show (k0_off1 k) 1 + 1 * r.val = r.val; rw [k0_off1_eq]; show 0 + 1 * r.val = _; omega))
  rw [pay_at, blockSpikes_of_coords x d _ _ q r h0 h1 h2, e]

/-! ## The run's stores, trip by trip -/

section Pieces

variable (𝒱 : Variants) (c : Dev nD) (bd : Option 𝒱.V) (i : grid0.Coords)
  (arg2 : Memref sig .tc .vmem S128x256 .f32) (harg2 : arg2.IsWhole) (arg3 : Memref sig .tc .vmem S1x256 .f32) (harg3 : arg3.IsWhole)
  (arg4 : Memref sig .tc .vmem S128x100x256 .f32) (harg4 : arg4.IsWhole)
  (d : Vec Ideal S1x256 .f32) (X : BufTy.Contents (Elt Ideal) arg2.view.ty)

/-- What trip k stores: ONE piece, at rows 16k … 16k+15 of the output block, the chunk value of the rows of the x block
    at the same offset (the trip's run opened once, here). -/
theorem trip_pieces (k : Fin k0_t1_loop.trips) :
    tripL_k0_t1 (F := Ideal) 𝒱 c bd i arg2 harg2 arg3 harg3 arg4 harg4 d X k
      = [⟨Rect.unit (s := S128x100x256) (k0_off2 k) S16x100x256.size (k0_off2_inb k),
          k0_pay1 (F := Ideal) d (View.ld (arg2.view.read (Elt Ideal) X)
            (Rect.unit (s := S128x256) (k0_off1 k) S16x256.size (k0_off1_inb k)))⟩] := by
  unfold tripL_k0_t1 trip_k0_t1
  rfl

/-- Every piece of trip k restricts the block function of the x block the memref holds. -/
theorem trip_restricts (x : Vec Ideal S128x256 .f32) (hX : arg2.view.read (Elt Ideal) X = x) (k : Fin k0_t1_loop.trips) :
    ∀ pc ∈ tripL_k0_t1 (F := Ideal) 𝒱 c bd i arg2 harg2 arg3 harg3 arg4 harg4 d X k,
      ∀ y : pc.1.shape.Idx, pc.2 y = blockSpikes x d (pc.1.emb y) := by
  intro pc hpc y
  rw [trip_pieces, hX] at hpc
  obtain rfl := List.mem_singleton.mp hpc
  obtain ⟨p, q, r, rfl⟩ : ∃ (p : Fin 16) (q : Fin 100) (r : Fin 256), y = ix3 p q r := ⟨y 0, y 1, y 2, eq_ix3 y⟩
  exact piece_at d x k p q r

/-- So does every piece of the trips before n, by induction on n. -/
theorem trips_restrict (x : Vec Ideal S128x256 .f32) (hX : arg2.view.read (Elt Ideal) X = x) :
    ∀ n : ℕ, ∀ pc ∈ pb_k0_t1 (F := Ideal) 𝒱 c bd i arg2 harg2 arg3 harg3 arg4 harg4 d X n,
      ∀ y : pc.1.shape.Idx, pc.2 y = blockSpikes x d (pc.1.emb y)
  | 0 => by
    intro pc hpc
    rw [pb_k0_t1.eq_1] at hpc
    exact absurd hpc List.not_mem_nil
  | n + 1 => by
    intro pc hpc
    rw [pb_k0_t1.eq_2] at hpc
    unfold pb_k0_t1Step at hpc
    split at hpc
    · rename_i hlt
      rcases List.mem_append.mp hpc with h | h
      · exact trip_restricts 𝒱 c bd i arg2 harg2 arg3 harg3 arg4 harg4 d X x hX ⟨n, hlt⟩ pc h
      · exact trips_restrict x hX n pc h
    · exact trips_restrict x hX n pc hpc

end Pieces

/-! ## The block read back -/

/-- WHAT THE BODY LEAVES in the output block is the block function of the two input blocks: the stores restrict it
    and cover the block. -/
theorem out_eq (c : Dev nD) (i : grid0.Coords) (arg2 : Memref sig .tc .vmem S128x256 .f32) (harg2 : arg2.IsWhole)
    (arg3 : Memref sig .tc .vmem S1x256 .f32) (harg3 : arg3.IsWhole) (arg4 : Memref sig .tc .vmem S128x100x256 .f32) (harg4 : arg4.IsWhole)
    (x0 : Vec Ideal S128x256 .f32) (x1 : Vec Ideal S1x256 .f32) :
    out0_A_2 (F := Ideal) c i arg2 harg2 arg3 harg3 arg4 harg4 x0 x1 = blockSpikes x0 x1 := by
  funext y
  unfold out0_A_2
  refine View.read_writes_apply_of_pieces _ _ (blockSpikes x0 x1) _ ?_ y (cover0_A_2 c i arg2 harg2 arg3 harg3 arg4 harg4 x0 x1 y)
  have hd : View.readAt (Elt Ideal) arg3.view (Rect.unit (s := S1x256) ![0, 0] S1x256.size inb_S1x256_S1x256_0_0).toLoadRect (harg3.unread x1) = x1 := by
    rw [View.readAt_eq_ld, harg3.read_unread, View.ld_unit_zero (S := S1x256) hz]
  unfold kernelRun0_A
  dsimp only
  rw [hd]
  exact trips_restrict Variants.none c none i arg2 harg2 arg3 harg3 arg4 harg4 x1 (harg2.unread x0) x0 (harg2.read_unread x0) _

end Cert.KernelSpikes

end
-- ==== Proof.SpikesArray.lean ====
/-
  From the blocks to the whole result array.

  The grid has 2 × 16 points; point (i, j) works on rows 128i … 128i+127 and features 256j … 256j+255: its x block is
  that tile of x, its delay row is features 256j … of the delays laid out as one row, and what it writes back is the
  [128, 100, 256] block of the result at (i, 0, j). The block the body leaves is the block function of the two input
  blocks (BlockValue); an entry of an input block IS the argument array's entry at the same row and feature, the delay
  row being the delay vector itself (a reshape to one row moves nothing). Joined with the law that clipping and rounding
  commute, the block a point writes back is the restriction of the spike tensor of the two arguments, and the 32 blocks
  tile the array: the result array ends as the spike tensor.
-/
import proofs.«116309_j78632261255776_2_alg».proof.Proof.Gen.KernelIdeal.Value
import proofs.«116309_j78632261255776_2_alg».proof.Proof.BlockValue
import Idealize.ShloMosaic.Lib.StableHlo.Run

noncomputable section

namespace Cert.KernelSpikes

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.SpikeSpec

variable (m : (ℓ : Loc nD τ sig) → Buf (Elt Ideal) ℓ) (ρ : Dev nD → PrngReg)

/-! ## An entry of a block is an entry of the tensor -/

/-- The block function at j is the spike tensor at I when I's row and feature are where j's entries of the two input
    blocks come from and I's step is j's: here the two orders of clipping and rounding meet. -/
theorem block_entry (A0 : FVec Ideal S256x4096 .f32) (A1 : FVec Ideal S4096 .f32)
    (X : Vec Ideal S128x256 .f32) (D : Vec Ideal S1x256 .f32) (j : S128x100x256.Idx) (I : S256x100x4096.Idx)
    (b : Fin 256) (f : Fin 4096) (hb : (I 0).val = b.val) (ht : (I 1).val = (j 1).val) (hf : (I 2).val = f.val)
    (hX : X (ix2 (j 0) (j 2)) = A0 (ix2 b f)) (hD : D (ix2 (0 : Fin 1) (j 2)) = A1 (ix1 f)) :
    blockSpikes X D j = spikes A0 A1 I := by
  have eI : (ix2 (I 0) (I 2) : S256x4096.Idx) = ix2 b f := funext fun a => Fin.ext (by
    match a with
    | ⟨0, _⟩ => exact hb
    | ⟨1, _⟩ => exact hf)
  have eF : (ix1 (I 2) : S4096.Idx) = ix1 f := funext fun a => Fin.ext (by
    match a with
    | ⟨0, _⟩ => exact hf)
  show mark (BitVec.ofNat 32 (j 1).val) (slotClipFirst (scaled (X (ix2 (j 0) (j 2))) (D (ix2 (0 : Fin 1) (j 2)))))
    = mark (BitVec.ofNat 32 (I 1).val) (slotRoundFirst (scaled (A0 (ix2 (I 0) (I 2))) (A1 (ix1 (I 2)))))
  rw [hX, hD, eI, eF, ht, slot_eq]

/-! ## The arrays as the region finds them -/

/-- The delay row the region stages: the host's reshape of the delay vector to one row. -/
theorem delays_row (c : Dev nD) :
    (V m c main_v0 : S1x4096.Idx → EReal) = shapeCast S1x4096 (m ((c : Thread nD τ).loc main_arg1)) shapeCasts_S4096_S1x4096 := by
  dsimp only [Gen.V, Gen.hostOps0]; after_results; rfl

/-- … read at feature f: the delay vector at f. -/
theorem delays_row_at (c : Dev nD) (f : Fin 4096) :
    V m c main_v0 (ix2 (0 : Fin 1) f) = m ((c : Thread nD τ).loc main_arg1) (ix1 f) := by
  rw [delays_row, shapeCast_a_1a_apply]

/-! ## The index maps, decided over the 32 points -/

/-- The x block moves with the output block on rows and features, the delay row on features; the output's middle
    block index is 0; the block indices stay in their ranges. -/
theorem idx_facts : ∀ t : Fin cfg0.N, win0_0.index t (0 : Fin 2) = win0_2.index t (0 : Fin 3)
    ∧ win0_0.index t (1 : Fin 2) = win0_2.index t (2 : Fin 3)
    ∧ win0_1.index t (0 : Fin 2) = 0
    ∧ win0_1.index t (1 : Fin 2) = win0_2.index t (2 : Fin 3)
    ∧ win0_2.index t (1 : Fin 3) = 0
    ∧ win0_2.index t (0 : Fin 3) ≤ 1 ∧ win0_2.index t (2 : Fin 3) ≤ 15 :=
  (by decide +kernel : ∀ t : Fin grid0.N, _)

/-- Every block of the result is some point's. -/
theorem idx_onto : ∀ (q0 : Fin 2) (q2 : Fin 16), ∃ t : Fin cfg0.N, win0_2.index t = ![q0.val, 0, q2.val] :=
  (by decide +kernel : ∀ (q0 : Fin 2) (q2 : Fin 16), ∃ t : Fin grid0.N, win0_2.index t = ![q0.val, 0, q2.val])

/-! ## What a point writes back -/

/-- WHAT POINT t WRITES BACK is block t of the spike tensor of the two arguments. -/
theorem flushed_eq (c : Dev nD) (t : Fin cfg0.N) :
    (dats m 0 c).flushed 2 t
      = ((cfg0.win 2).blk t).view.read (Elt Ideal)
          (spikes (m ((c : Thread nD τ).loc main_arg0)) (m ((c : Thread nD τ).loc main_arg1))) := by
  rw [flushed2_A, out_eq]
  obtain ⟨e0, e1, e2, e3, e4, e5, e6⟩ := idx_facts t
  funext j
  have hj0 : (j 0).val < 128 := (j 0).isLt
  have hj1 : (j 1).val < 100 := (j 1).isLt
  have hj2 : (j 2).val < 256 := (j 2).isLt
  show blockSpikes (iblk m c 0 t) (iblk m c 1 t) j
    = spikes (m ((c : Thread nD τ).loc main_arg0)) (m ((c : Thread nD τ).loc main_arg1)) (((cfg0.win 2).blk t).view.emb j)
  refine block_entry _ _ _ _ j _
    ⟨win0_2.index t (0 : Fin 3) * 128 + (j 0).val, by omega⟩ ⟨win0_2.index t (2 : Fin 3) * 256 + (j 2).val, by omega⟩ ?_ ?_ ?_ ?_ ?_
  · show win0_2.index t (0 : Fin 3) * 128 + 1 * (j 0).val = win0_2.index t (0 : Fin 3) * 128 + (j 0).val
    omega
  · show win0_2.index t (1 : Fin 3) * 100 + 1 * (j 1).val = (j 1).val
    omega
  · show win0_2.index t (2 : Fin 3) * 256 + 1 * (j 2).val = win0_2.index t (2 : Fin 3) * 256 + (j 2).val
    omega
  · show V m c main_arg0 (((cfg0.win 0).blk t).view.emb (ix2 (j 0) (j 2))) = _
    rw [V_main_arg0]
    refine congrArg (m ((c : Thread nD τ).loc main_arg0)) (funext fun a => Fin.ext ?_)
    match a with
    | ⟨0, _⟩ =>
      show win0_0.index t (0 : Fin 2) * 128 + 1 * (j 0).val = win0_2.index t (0 : Fin 3) * 128 + (j 0).val
      omega
    | ⟨1, _⟩ =>
      show win0_0.index t (1 : Fin 2) * 256 + 1 * (j 2).val = win0_2.index t (2 : Fin 3) * 256 + (j 2).val
      omega
  · show V m c main_v0 (((cfg0.win 1).blk t).view.emb (ix2 (0 : Fin 1) (j 2))) = _
    have e : ((cfg0.win 1).blk t).view.emb (ix2 (0 : Fin 1) (j 2))
        = ix2 (0 : Fin 1) (⟨win0_2.index t (2 : Fin 3) * 256 + (j 2).val, by omega⟩ : Fin 4096) :=
      funext fun a => Fin.ext (by
        match a with
        | ⟨0, _⟩ =>
          show win0_1.index t (0 : Fin 2) * 1 + 1 * 0 = 0
          omega
        | ⟨1, _⟩ =>
          show win0_1.index t (1 : Fin 2) * 256 + 1 * (j 2).val = win0_2.index t (2 : Fin 3) * 256 + (j 2).val
          omega)
    rw [e, delays_row_at]

/-! ## The blocks tile the array -/

/-- An index of the array is in point t's block iff each coordinate is in the block's range on its axis. -/
theorem mem_blk (t : Fin cfg0.N) (i : S256x100x4096.Idx) :
    i ∈ ((cfg0.win 2).blk t).view.set ↔ ∀ a : Fin 3, win0_2.index t a * S128x100x256.size a ≤ (i a).val
      ∧ (i a).val < win0_2.index t a * S128x100x256.size a + S128x100x256.size a := by
  show i ∈ ((View.whole main_v1).slice (win0_2.rect t)).set ↔ _
  rw [View.set_slice_whole, Rect.mem_set_unit]
  exact Iff.rfl

/-- Every index of the result array is in the block of the point at (row / 128, feature / 256). -/
theorem cover (i : S256x100x4096.Idx) :
    ∃ t : Fin cfg0.N, (cfg0.win 2).flush t = true ∧ i ∈ ((cfg0.win 2).blk t).view.set := by
  have hi0 : (i 0).val < 256 := (i 0).isLt
  have hi1 : (i 1).val < 100 := (i 1).isLt
  have hi2 : (i 2).val < 4096 := (i 2).isLt
  obtain ⟨t, ht⟩ := idx_onto ⟨(i 0).val / 128, by omega⟩ ⟨(i 2).val / 256, by omega⟩
  have q0 : win0_2.index t (0 : Fin 3) = (i 0).val / 128 := congrFun ht 0
  have q1 : win0_2.index t (1 : Fin 3) = 0 := congrFun ht 1
  have q2 : win0_2.index t (2 : Fin 3) = (i 2).val / 256 := congrFun ht 2
  refine ⟨t, flush0_2 t, ?_⟩
  rw [mem_blk]
  intro a
  match a with
  | ⟨0, _⟩ =>
    show win0_2.index t (0 : Fin 3) * 128 ≤ (i 0).val ∧ (i 0).val < win0_2.index t (0 : Fin 3) * 128 + 128
    omega
  | ⟨1, _⟩ =>
    show win0_2.index t (1 : Fin 3) * 100 ≤ (i 1).val ∧ (i 1).val < win0_2.index t (1 : Fin 3) * 100 + 100
    omega
  | ⟨2, _⟩ =>
    show win0_2.index t (2 : Fin 3) * 256 ≤ (i 2).val ∧ (i 2).val < win0_2.index t (2 : Fin 3) * 256 + 256
    omega

/-! ## The array, and the run -/

/-- THE RESULT ARRAY after the run is the spike tensor of the two arguments. -/
theorem final (c : Dev nD) :
    (dats m 0 c).arrAt 2 cfg0.N = spikes (m ((c : Thread nD τ).loc main_arg0)) (m ((c : Thread nD τ).loc main_arg1)) :=
  (dats m 0 c).arrAt_eq_of_cover 2 _ (fun t _ => flushed_eq m c t) cover

/-- The kernel's run: every weakly fair execution terminates with the result array the spike tensor of the arguments,
    the arguments unchanged. -/
theorem run : θ_run defs (onTc (τ := τ) (main (F := Ideal))) ⟨m, fun _ => 0, ρ⟩ fun r => ∀ c : Dev nD,
      r.2.mem ((c : Thread nD τ).loc main_v1) = spikes (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelSpikes

end
-- ==== Proof.RefSpikes.lean ====
/-
  The reference computes the spike tensor.

  Read one operation at a time, its result at (b, t, f) is the one-bit comparison of the step t with the slot of (b, f),
  converted to a number; the slot is (1 − x[b,f] · d[f]) · 99 rounded toward zero and then clipped, as an integer, to
  [0, 99]. The broadcasts only route coordinates: the delay vector is read at f, the array x at (b, f), the step
  counter at t.
-/
import proofs.«116309_j78632261255776_2_alg».proof.Proof.Gen.ReferenceIdeal.Read
import proofs.«116309_j78632261255776_2_alg».proof.Proof.SpikeSpec

noncomputable section

namespace Cert.RefSpikes

open Cert.ReferenceIdeal Cert.ReferenceIdeal.Read Idealize.ShloMosaic Idealize.ShloMosaic.ValueIdx Cert.SpikeSpec

/-- The reference's last stage is the spike tensor of its two arguments. -/
theorem ref_eq (x0 : (⟨S256x4096, .f32⟩ : BufTy).Contents (Elt Ideal)) (x1 : (⟨S4096, .f32⟩ : BufTy).Contents (Elt Ideal)) :
    val_main_v15 (F := Ideal) x0 x1 = spikes x0 x1 := by
  funext i
  -- where the broadcasts send the index
  have e_t : ((idx_main_v10 (idx_main_v12 i)) 0).val = (i 1).val := rfl
  have e_x : idx_main_v11 (idx_main_v13 i) = ix2 (i 0) (i 2) :=
    funext fun a => Fin.ext (by match a with | ⟨0, _⟩ => rfl | ⟨1, _⟩ => rfl)
  have e_d : idx_main_v0 (idx_main_v1 (ix2 (i 0) (i 2))) = ix1 (i 2) :=
    funext fun a => Fin.ext (by match a with | ⟨0, _⟩ => rfl)
  rw [val_main_v15_apply, val_main_v14_apply, val_main_v12_apply, val_main_v10_apply, val_main_v9_apply,
    val_main_v13_apply, val_main_v11_apply, val_main_v8_apply, val_main_call0_v4_apply, val_main_call0_v3_apply,
    val_main_c_1_apply, val_main_call0_v2_apply, val_main_call0_v1_apply, val_main_call0_v0_apply, val_main_c_apply,
    val_main_v7_apply, val_main_v6_apply, val_main_v4_apply, val_main_v3_apply, val_main_cst_apply, val_main_v2_apply,
    val_main_v1_apply, val_main_v0_apply, val_main_v5_apply, val_main_cst_0_apply, e_t, e_x, e_d]
  rfl

end Cert.RefSpikes

end
-- ==== Proof.lean ====
/-
  A one-hot spike-time tensor: the kernel against its reference, over the extended reals.

  Both programs take x : [256, 4096] and delays d : [4096] and produce s : [256, 100, 4096] with s[b, t, f] = 1 when t is
  the spike time of (b, f) and 0 otherwise. The spike time is v = (1 − x[b, f] · d[f]) · 99 made an integer of [0, 99]:
  the kernel clips v to [0, 99] as a number and then rounds toward zero; the reference rounds toward zero first (the
  rounding saturates at the ends of the 32-bit range, also at the infinities) and then clips the integer. Rounding
  toward zero is monotone and fixes 0 and 99, so the two orders agree for EVERY extended real v (SpikeSpec `slot_eq`):
  the claim needs nothing of the inputs, and the precondition is never opened. The kernel writes 1.0 or 0.0 by a select
  on the comparison's bit, the reference converts the bit to a number: the same value.

  The kernel's side: its grid of 2 × 16 points tiles the result by [128, 100, 256] blocks; at a point the body fills the
  block in 8 chunks of 16 rows, every chunk's store the restriction of one function of the block index (ChunkValue,
  BlockValue), and an entry of an input block is the argument's entry at the same row and feature (SpikesArray). The
  reference's side is its operations read one at a time (RefSpikes). Both end with the same function `spikes` of the
  arguments. The three frames are the programs' runs with the results dropped; nothing was rewritten by the
  idealization, so there is nothing to preserve.
-/
import proofs.«116309_j78632261255776_2_alg».proof.Defs
import proofs.«116309_j78632261255776_2_alg».proof.Proof.Gen.Kernel
import proofs.«116309_j78632261255776_2_alg».proof.Proof.Gen.Kernel.Frame
import proofs.«116309_j78632261255776_2_alg».proof.Proof.Gen.KernelIdeal
import proofs.«116309_j78632261255776_2_alg».proof.Proof.Gen.KernelIdeal.Frame
import proofs.«116309_j78632261255776_2_alg».proof.Proof.Gen.KernelIdeal.Value
import proofs.«116309_j78632261255776_2_alg».proof.Proof.Gen.ReferenceIdeal
import proofs.«116309_j78632261255776_2_alg».proof.Proof.Gen.ReferenceIdeal.Run
import proofs.«116309_j78632261255776_2_alg».proof.Proof.Gen.ReferenceIdeal.Read
import proofs.«116309_j78632261255776_2_alg».proof.Proof.Gen.Pre_finite_inputs
import proofs.«116309_j78632261255776_2_alg».proof.Proof.SpikesArray
import proofs.«116309_j78632261255776_2_alg».proof.Proof.RefSpikes
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on x and d both programs end with the spike tensor of x and d: the kernel's result array
    block by block (`KernelSpikes.run`), the reference's operation by operation (`RefSpikes.ref_eq`). -/
theorem algebraic : Cert.algebraic_KernelIdeal_ReferenceIdeal := by
  intro m ρ m' ρ' _ hagree
  refine ⟨_, Cert.KernelSpikes.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v15_eq]
  exact Cert.RefSpikes.ref_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
